-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S256x8192 : Shape := ⟨2, ![256, 8192]⟩
abbrev S8192 : Shape := ⟨1, ![8192]⟩
abbrev S8192x8192 : Shape := ⟨2, ![8192, 8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S256x8192 : S_.BroadcastsInDim S256x8192 (![] : Fin 0 → Fin S256x8192.rank)
  reducesTo_S256x8192_S_d0_1 : S256x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S64x8192 .f32) (main_arg1 : FVec F S256x8192 .f32) (main_arg2 : FVec F S256x8192 .f32) (main_arg3 : FVec F S8192 .f32) (main_arg4 : IVec S8192x8192 32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S256x8192 .f32 := Host.absf main_arg1
  let main_cst_0 : FVec F S_ .f32 := constant S_ .f32 0x7F800000#32
  let main_v5 : FVec F S256x8192 .f32 := broadcastInDim S256x8192 ![] bcast_S_S256x8192 main_cst_0
  let main_v6 : IVec S256x8192 1 := cmpf .olt main_v4 main_v5
  let main_c_1 : IVec S_ 1 := constantI S_ 1 1#1
  let main_v7 : IVec S_ 1 := (fun x v => Host.reduce IntOp.andi x v reducesTo_S256x8192_S_d0_1 h_S_) main_v6 main_c_1
  let main_v8 : IVec S_ 1 := andi main_v3 main_v7
  let main_v9 : FVec F S256x8192 .f32 := Host.absf main_arg2
  let main_cst_2 : FVec F S_ .f32 := constant S_ .f32 0x7F800000#32
  let main_v10 : FVec F S256x8192 .f32 := broadcastInDim S256x8192 ![] bcast_S_S256x8192 main_cst_2
  let main_v11 : IVec S256x8192 1 := cmpf .olt main_v9 main_v10
  let main_c_3 : IVec S_ 1 := constantI S_ 1 1#1
  let main_v12 : IVec S_ 1 := (fun x v => Host.reduce IntOp.andi x v reducesTo_S256x8192_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S64x8192 : Shape := ⟨2, ![64, 8192]⟩
abbrev S256x8192 : Shape := ⟨2, ![256, 8192]⟩
abbrev S8192 : Shape := ⟨1, ![8192]⟩
abbrev S8192x8192 : Shape := ⟨2, ![8192, 8192]⟩
abbrev S1x8192 : Shape := ⟨2, ![1, 8192]⟩
abbrev S1024x1024 : Shape := ⟨2, ![1024, 1024]⟩
abbrev S32x1024 : Shape := ⟨2, ![32, 1024]⟩
abbrev S1x1024 : Shape := ⟨2, ![1, 1024]⟩
abbrev S64x1024 : Shape := ⟨2, ![64, 1024]⟩
abbrev S32x32x1024 : Shape := ⟨3, ![32, 32, 1024]⟩
abbrev S32x1x1024 : Shape := ⟨3, ![32, 1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S64x8192, .f32⟩
  | .hbm, ⟨1, _⟩ => ⟨S256x8192, .f32⟩
  | .hbm, ⟨2, _⟩ => ⟨S256x8192, .f32⟩
  | .hbm, ⟨3, _⟩ => ⟨S8192, .f32⟩
  | .hbm, ⟨4, _⟩ => ⟨S8192x8192, .i32⟩
  | .hbm, ⟨5, _⟩ => ⟨S1x8192, .f32⟩
  | .hbm, ⟨6, _⟩ => ⟨S64x8192, .f32⟩
  | .local _ .vmem, ⟨0, _⟩ => ⟨S64x8192, .f32⟩
  | .local _ .vmem, ⟨1, _⟩ => ⟨S1024x1024, .i32⟩
  | .local _ .vmem, ⟨2, _⟩ => ⟨S1024x1024, .i32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S1x1024, .f32⟩
  | .local _ .vmem, ⟨8, _⟩ => ⟨S1x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_11 : BitVec 32 := 0#32
  let v29 : BitVec 1 := Scalar.cmpi .ne v28 c0_i32_11
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S64x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S1x8192 : S8192.ShapeCasts S1x8192
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S32x32x1024 : S1024x1024.ShapeCasts S32x32x1024
  inb_S32x1024_S32x1024_0_0 : ∀ a, (![0, 0] : Fin 2 → Nat) a + S32x1024.size a ≤ S32x1024.size a
  h_S32x1024 : 0 < S32x1024.numel
  shapeCasts_S32x1024_S32x1x1024 : S32x1024.ShapeCasts S32x1x1024
  broadcasts_S32x1x1024_S32x32x1024 : S32x1x1024.Broadcasts S32x32x1024
  shapeCasts_S32x32x1024_S1024x1024 : S32x32x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  dot_S64x1024_S1024x1024_S64x1024_1_0_0_1_n_n_wf : DotDims.WF S64x1024 S1024x1024 S64x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S64x1024.size a ≤ S64x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x8192.size a
  hwx0_0 : ∀ i : grid0.Coords, EltTy.bits .f32 = 32 ∨ (Rect.block (s := S64x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .i32 = 32 ∨ (Rect.block (s := S8192x8192) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S256x8192.size a
  hwx0_2 : ∀ i : grid0.Coords, EltTy.bits .f32 = 32 ∨ (Rect.block (s := S256x8192) S32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S256x8192.size a
  hwx0_3 : ∀ i : grid0.Coords, EltTy.bits .f32 = 32 ∨ (Rect.block (s := S256x8192) S32x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x8192.size a
  hwx0_5 : ∀ i : grid0.Coords, EltTy.bits .f32 = 32 ∨ (Rect.block (s := S64x8192) S64x1024.size (cc0_transform_5 i) (hinb0_5 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev win0_0 : Pipeline.Window sig grid0 :=
  Pipeline.Window.ofSpec (Memref.whole main_arg0) S64x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S64x8192 : Shape := ⟨2, ![64, 8192]⟩
abbrev S256x8192 : Shape := ⟨2, ![256, 8192]⟩
abbrev S8192 : Shape := ⟨1, ![8192]⟩
abbrev S8192x8192 : Shape := ⟨2, ![8192, 8192]⟩
abbrev S256x32x8192 : Shape := ⟨3, ![256, 32, 8192]⟩
abbrev S1x8192 : Shape := ⟨2, ![1, 8192]⟩

abbrev nBuf : Space → Nat
  | .hbm => 16
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S256x8192, .f32⟩
  | .hbm, ⟨2, _⟩ => ⟨S256x8192, .f32⟩
  | .hbm, ⟨3, _⟩ => ⟨S8192, .f32⟩
  | .hbm, ⟨4, _⟩ => ⟨S8192x8192, .i32⟩
  | .hbm, ⟨5, _⟩ => ⟨S256x32x8192, .f32⟩
  | .hbm, ⟨6, _⟩ => ⟨S8192x8192, .f32⟩
  | .hbm, ⟨7, _⟩ => ⟨S256x32x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S64x8192, .f32⟩
  | .hbm, ⟨13, _⟩ => ⟨S1x8192, .f32⟩
  | .hbm, ⟨14, _⟩ => ⟨S64x8192, .f32⟩
  | .hbm, ⟨15, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S256x8192_S256x32x8192_0_2 : S256x8192.BroadcastsInDim S256x32x8192 (![0, 2] : Fin 2 → Fin S256x32x8192.rank)
  shapeCasts_S256x32x8192_S8192x8192 : S256x32x8192.ShapeCasts S8192x8192
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  dot_S64x8192_S8192x8192_S64x8192_1_0_0_1_n_n_wf : DotDims.WF S64x8192 S8192x8192 S64x8192 [1] [0] [0] [1] [] []

variable [Facts₀]

def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.KernelBlocks.lean ====
/-
  What one grid step of the kernel leaves behind, as values.

  The kernel walks an 8 × 8 grid: column block `n` of the result (1024 columns) and, innermost, stretch `k` of the
  contraction (1024 rows of the weight). A scratch block of 64 × 1024 carries the running sum for the current column
  block from step to step. Each step adds to the scratch the product of `x`'s columns `k · 1024 …` with the step's
  dequantized weight tile; the first step of a column block starts from a zero block, and only the last step writes
  the result block: the scratch plus the bias row. Here each of these is read off the stores the step makes.
-/
import proofs.«179430_j47296179864030_2_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]

theorem zero_offsets : (![0, 0] : Fin 2 → Nat) = fun _ => 0 := funext fun a => by fin_cases a <;> rfl

/-- The columns of `x` a step multiplies: the 64 × 1024 tile the body loads at the step's column offset. -/
abbrev xTile (i : grid0.Coords) (x0 : Vec F S64x8192 .f32) : Vec F S64x1024 .f32 :=
  View.ld x0 (Rect.unit (s := S64x8192) (k0_off1 i) S64x1024.size (k0_off1_inb i))

/-- A middle step (neither first nor last of its column block): the scratch, holding `acc`, is left at the step's
    one store — `acc` plus the step's product. -/
theorem scratch_mid (c : Dev nD) (i : grid0.Coords) (arg2 : Memref sig .tc .vmem S64x8192 .f32) (harg2 : arg2.IsWhole) (arg3 : Memref sig .tc .vmem S1024x1024 .i32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S64x1024 .f32) (harg7 : arg7.IsWhole) (arg8 : Memref sig .tc .vmem S64x1024 .f32) (harg8 : arg8.IsWhole) (hc0 : ¬cond0_0 i) (hc1 : ¬cond0_1 i)
    (x0 : Vec F S64x8192 .f32) (x1 : Vec F S1024x1024 .i32) (x2 : Vec F S32x1024 .f32) (x3 : Vec F S32x1024 .f32) (x4 : Vec F S1x1024 .f32) (acc : Vec F S64x1024 .f32) :
    sout0_B_0 c i arg2 harg2 arg3 harg3 arg4 harg4 arg5 harg5 arg6 harg6 arg7 harg7 arg8 harg8 hc0 hc1 x0 x1 x2 x3 x4 acc = k0_pay2 (xTile i x0) x1 x2 x3 acc := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 acc)]
  unfold kernelRun0_B
  dsimp only
  rw [View.canon_unit_zero zero_offsets]
  simp only [View.readAt_eq_ld, harg2.read_unread, harg3.read_unread, harg4.read_unread, harg5.read_unread, harg8.read_unread,
    View.ld_unit_zero (S := S1024x1024) zero_offsets, View.ld_unit_zero (S := S32x1024) zero_offsets, View.ld_unit_zero (S := S64x1024) zero_offsets]

/-- The last step of a column block leaves the scratch the same way. -/
theorem scratch_last (c : Dev nD) (i : grid0.Coords) (arg2 : Memref sig .tc .vmem S64x8192 .f32) (harg2 : arg2.IsWhole) (arg3 : Memref sig .tc .vmem S1024x1024 .i32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S64x1024 .f32) (harg7 : arg7.IsWhole) (arg8 : Memref sig .tc .vmem S64x1024 .f32) (harg8 : arg8.IsWhole) (hc0 : ¬cond0_0 i) (hc1 : cond0_1 i)
    (x0 : Vec F S64x8192 .f32) (x1 : Vec F S1024x1024 .i32) (x2 : Vec F S32x1024 .f32) (x3 : Vec F S32x1024 .f32) (x4 : Vec F S1x1024 .f32) (acc : Vec F S64x1024 .f32) :
    sout0_C_0 c i arg2 harg2 arg3 harg3 arg4 harg4 arg5 harg5 arg6 harg6 arg7 harg7 arg8 harg8 hc0 hc1 x0 x1 x2 x3 x4 acc = k0_pay2 (xTile i x0) x1 x2 x3 acc := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 acc)]
  unfold kernelRun0_C
  dsimp only
  sl_unfold_words
  rw [View.canon_unit_zero zero_offsets]
  simp only [View.readAt_eq_ld, harg2.read_unread, harg3.read_unread, harg4.read_unread, harg5.read_unread, harg8.read_unread,
    View.ld_unit_zero (S := S1024x1024) zero_offsets, View.ld_unit_zero (S := S32x1024) zero_offsets, View.ld_unit_zero (S := S64x1024) zero_offsets]
  rfl

/-- The first step of a column block stores a zero block into the scratch, reads it back and leaves the zero block
    plus the step's product. -/
theorem scratch_first (c : Dev nD) (i : grid0.Coords) (arg2 : Memref sig .tc .vmem S64x8192 .f32) (harg2 : arg2.IsWhole) (arg3 : Memref sig .tc .vmem S1024x1024 .i32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S64x1024 .f32) (harg7 : arg7.IsWhole) (arg8 : Memref sig .tc .vmem S64x1024 .f32) (harg8 : arg8.IsWhole) (hc0 : cond0_0 i) (hc1 : ¬cond0_1 i)
    (x0 : Vec F S64x8192 .f32) (x1 : Vec F S1024x1024 .i32) (x2 : Vec F S32x1024 .f32) (x3 : Vec F S32x1024 .f32) (x4 : Vec F S1x1024 .f32) :
    sout0_A_0 c i arg2 harg2 arg3 harg3 arg4 harg4 arg5 harg5 arg6 harg6 arg7 harg7 arg8 harg8 hc0 hc1 x0 x1 x2 x3 x4 = k0_pay2 (xTile i x0) x1 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S64x1024) zero_offsets, View.readCov_unit_zero (S := S64x1024) _ zero_offsets]
  simp only [View.readAt_eq_ld, harg2.read_unread, harg3.read_unread, harg4.read_unread, harg5.read_unread,
    View.ld_unit_zero (S := S1024x1024) zero_offsets, View.ld_unit_zero (S := S32x1024) zero_offsets]
  rfl

/-- The last step also stores the result block: what it has just left in the scratch, read back, plus the bias row. -/
theorem result_last (c : Dev nD) (i : grid0.Coords) (arg2 : Memref sig .tc .vmem S64x8192 .f32) (harg2 : arg2.IsWhole) (arg3 : Memref sig .tc .vmem S1024x1024 .i32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S64x1024 .f32) (harg7 : arg7.IsWhole) (arg8 : Memref sig .tc .vmem S64x1024 .f32) (harg8 : arg8.IsWhole) (hc0 : ¬cond0_0 i) (hc1 : cond0_1 i)
    (x0 : Vec F S64x8192 .f32) (x1 : Vec F S1024x1024 .i32) (x2 : Vec F S32x1024 .f32) (x3 : Vec F S32x1024 .f32) (x4 : Vec F S1x1024 .f32) (acc : Vec F S64x1024 .f32) :
    out0_C_5 c i arg2 harg2 arg3 harg3 arg4 harg4 arg5 harg5 arg6 harg6 arg7 harg7 arg8 harg8 hc0 hc1 x0 x1 x2 x3 x4 acc = k0_pay3 (k0_pay2 (xTile i x0) x1 x2 x3 acc) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 acc)]
  unfold kernelRun0_C
  dsimp only
  sl_unfold_words
  rw [View.canon_unit_zero zero_offsets, View.readCov_unit_zero (S := S64x1024) _ zero_offsets]
  simp only [View.readAt_eq_ld, harg2.read_unread, harg3.read_unread, harg4.read_unread, harg5.read_unread, harg6.read_unread, harg8.read_unread,
    View.ld_unit_zero (S := S1024x1024) zero_offsets, View.ld_unit_zero (S := S32x1024) zero_offsets, View.ld_unit_zero (S := S64x1024) zero_offsets,
    View.ld_unit_zero (S := S1x1024) zero_offsets]
  rfl

end Cert.KernelIdeal.Steps

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.TileValue.lean ====
/-
  One grid step's arithmetic, read at one entry, over the extended reals.

  The body reshapes the step's 1024 × 1024 integer tile to 32 groups of 32 rows, converts it to reals, subtracts each
  group's zero-point row and multiplies by each group's scale row (both broadcast over the group's 32 rows), and
  reshapes back: tile row `j` uses group `j / 32`. It then multiplies the step's 64 × 1024 tile of `x` by that
  dequantized tile and adds the product to the running sum. At entry `(p, q)` this is
  `acc[p, q] + Σ_j x[p, j] · scale[j / 32, q] · (w[j, q] − zero[j / 32, q])`. The changes of float format in between
  are the identity on extended reals. The last step's result block adds the bias row to every row.
-/
import proofs.«179430_j47296179864030_2_alg».proof.Proof.Gen.KernelIdeal.Skeleton
import proofs.«179430_j47296179864030_2_alg».proof.Proof.LibMatmulEntry
import Idealize.ShloMosaic.Lib.Pipeline.Value
import Idealize.ShloMosaic.Lib.ValueLayout
import Idealize.ShloMosaic.Lib.ValueIdx

noncomputable section

open scoped BigOperators

namespace Cert.KernelIdeal.Tile

open Cert.KernelIdeal Cert.KernelIdeal.Gen Idealize.ShloMosaic Idealize.ShloMosaic.ValueIdx

/-- The group of 32 rows, within a 1024-row tile, that tile row `j` belongs to. -/
def tileGroup (j : Fin 1024) : Fin 32 := ⟨j.val / 32, by have := j.isLt; omega⟩

/-- The position of tile row `j` within its group. -/
def tileLane (j : Fin 1024) : Fin 32 := ⟨j.val % 32, Nat.mod_lt _ (by decide)⟩

/-- A 32 × 1024 array of per-group rows, given a unit middle axis and broadcast over the 32 rows of each group: at
    `(b, l, q)` it is group `b`'s row at `q`. -/
theorem groupRows_apply {α : Type} (v : S32x1024.Idx → α) (b l : Fin 32) (q : Fin 1024) :
    broadcastTo S32x32x1024 (shapeCast S32x1x1024 v shapeCasts_S32x1024_S32x1x1024) broadcasts_S32x1x1024_S32x32x1024 (ix3 b l q)
      = v (ix2 b q) :=
  (broadcastTo_apply _ broadcasts_S32x1x1024_S32x32x1024 (ix3 b l q) (ix3 b (0 : Fin 1) q) (fun a => by
    match a with
    | ⟨0, _⟩ => show b.val = if (32 : Nat) = 1 then 0 else b.val; rw [if_neg (by decide)]
    | ⟨1, _⟩ => show 0 = if (1 : Nat) = 1 then 0 else l.val; rw [if_pos rfl]
    | ⟨2, _⟩ => show q.val = if (1024 : Nat) = 1 then 0 else q.val; rw [if_neg (by decide)])).trans
  (shapeCast_apply v shapeCasts_S32x1024_S32x1x1024 (ix3 b (0 : Fin 1) q) (ix2 b q) (by
    rw [Shape.rowMajor_val_two, Shape.rowMajor_val_three]
    show b.val * 1024 + q.val = (b.val * 1 + 0) * 1024 + q.val
    omega))

/-- The 1024 × 1024 tile split into 32 groups of 32 rows: `(b, l, q)` is tile row `32 b + l`. -/
theorem grouped_apply {α : Type} (v : S1024x1024.Idx → α) (b l : Fin 32) (q : Fin 1024) :
    shapeCast S32x32x1024 v shapeCasts_S1024x1024_S32x32x1024 (ix3 b l q)
      = v (ix2 (⟨b.val * 32 + l.val, by have := b.isLt; have := l.isLt; omega⟩ : Fin 1024) q) :=
  shapeCast_apply v shapeCasts_S1024x1024_S32x32x1024 (ix3 b l q) _ (by
    rw [Shape.rowMajor_val_two, Shape.rowMajor_val_three]
    show (b.val * 32 + l.val) * 1024 + q.val = (b.val * 32 + l.val) * 1024 + q.val
    rfl)

/-- The groups merged back into 1024 rows: tile row `j` is row `j % 32` of group `j / 32`. -/
theorem merged_apply {α : Type} (y : S32x32x1024.Idx → α) (j q : Fin 1024) :
    shapeCast S1024x1024 y shapeCasts_S32x32x1024_S1024x1024 (ix2 j q) = y (ix3 (tileGroup j) (tileLane j) q) :=
  shapeCast_apply y shapeCasts_S32x32x1024_S1024x1024 (ix2 j q) _ (by
    rw [Shape.rowMajor_val_two, Shape.rowMajor_val_three]
    show (j.val / 32 * 32 + j.val % 32) * 1024 + q.val = j.val * 1024 + q.val
    have := Nat.div_add_mod j.val 32
    omega)

/-- The dequantized weight tile the body builds from the step's integer tile, scale rows and zero-point rows. -/
def weightTile (w : Vec Ideal S1024x1024 .i32) (sc zr : Vec Ideal S32x1024 .f32) : FVec Ideal S1024x1024 .bf16 :=
  truncf .bf16 (shapeCast S1024x1024
    (mulf (broadcastTo S32x32x1024 (shapeCast S32x1x1024 sc shapeCasts_S32x1024_S32x1x1024) broadcasts_S32x1x1024_S32x32x1024)
      (subf (sitofp .f32 (shapeCast S32x32x1024 w shapeCasts_S1024x1024_S32x32x1024))
        (broadcastTo S32x32x1024 (shapeCast S32x1x1024 zr shapeCasts_S32x1024_S32x1x1024) broadcasts_S32x1x1024_S32x32x1024)))
    shapeCasts_S32x32x1024_S1024x1024) bitsLt_bf16_f32

/-- Its entry `(j, q)`: the integer at `(j, q)` minus the zero point, times the scale, of row `j`'s group. -/
theorem weightTile_apply (w : Vec Ideal S1024x1024 .i32) (sc zr : Vec Ideal S32x1024 .f32) (j q : Fin 1024) :
    weightTile w sc zr (ix2 j q)
      = sc (ix2 (tileGroup j) q) * ((((w (ix2 j q)).toInt : ℝ) : EReal) - zr (ix2 (tileGroup j) q)) := by
  unfold weightTile
  rw [truncf_apply, merged_apply, mulf_apply, subf_apply, sitofp_apply, groupRows_apply, groupRows_apply, grouped_apply]
  have hj : (⟨(tileGroup j).val * 32 + (tileLane j).val, by have := (tileGroup j).isLt; have := (tileLane j).isLt; omega⟩ : Fin 1024) = j :=
    Fin.ext (by show j.val / 32 * 32 + j.val % 32 = j.val; have := Nat.div_add_mod j.val 32; omega)
  rw [hj]
  rfl

/-- One step's store into the scratch, at entry `(p, q)`: the running sum plus the step's 1024 products. -/
theorem step_apply (xt : Vec Ideal S64x1024 .f32) (w : Vec Ideal S1024x1024 .i32) (sc zr : Vec Ideal S32x1024 .f32)
    (acc : Vec Ideal S64x1024 .f32) (p : Fin 64) (q : Fin 1024) :
    k0_pay2 xt w sc zr acc (ix2 p q)
      = acc (ix2 p q) + ∑ j : Fin 1024, xt (ix2 p j)
          * (sc (ix2 (tileGroup j) q) * ((((w (ix2 j q)).toInt : ℝ) : EReal) - zr (ix2 (tileGroup j) q))) := by
  have e : k0_pay2 xt w sc zr acc
      = addf acc (matmul dot_S64x1024_S1024x1024_S64x1024_1_0_0_1_n_n none (truncf .bf16 xt bitsLt_bf16_f32) (weightTile w sc zr)
          (constant S64x1024 .f32 0x00000000#32)) := by
    unfold k0_pay2 weightTile
    exact shapeCast_self _ _
  rw [e, addf_apply]
  congr 1
  refine (Ideal.matmul_rows_cols dot_S64x1024_S1024x1024_S64x1024_1_0_0_1_n_n rfl rfl rfl rfl rfl rfl none _ _ p q).trans ?_
  refine Finset.sum_congr rfl fun j _ => ?_
  rw [weightTile_apply]
  rfl

/-- The zero block the first step of a column block stores: zero at every entry. -/
theorem zeroBlock_apply (y : S64x1024.Idx) : k0_pay1 (F := Ideal) y = 0 := by
  have e : k0_pay1 (F := Ideal) = broadcast S64x1024 (Scalar.ofBits .f32 0x00000000#32) := by
    unfold k0_pay1
    exact shapeCast_self _ _
  rw [e]
  show Ideal.ofBits .f32 0x00000000#32 = 0
  exact Ideal.ofBits_zero_f32

/-- The result block the last step stores, at entry `(p, q)`: the finished sum plus the bias row's entry `q`. -/
theorem resultBlock_apply (s : Vec Ideal S64x1024 .f32) (b : Vec Ideal S1x1024 .f32) (p : Fin 64) (q : Fin 1024) :
    k0_pay3 s b (ix2 p q) = s (ix2 p q) + b (ix2 (0 : Fin 1) q) := by
  have e : k0_pay3 s b = addf s (broadcastTo S64x1024 b broadcasts_S1x1024_S64x1024) := by
    unfold k0_pay3
    rw [shapeCast_self]
  rw [e, addf_apply, broadcastTo_1b_ab_apply]

end Cert.KernelIdeal.Tile

end
-- ==== Proof.InputBlocks.lean ====
/-
  Where each grid step's input blocks sit in the argument arrays.

  Step `t` of the 8 × 8 grid works on column block `n = t / 8` and contraction stretch `k = t % 8`. It sees all of
  `x`; the integer tile at rows `k · 1024 …` and columns `n · 1024 …` of the weight; the 32 scale rows and 32 zero-point
  rows of that stretch's groups, `k · 32 …`, at the same columns; and the bias entries of those columns (the bias,
  given as a one-row matrix before the kernel runs). Each statement reads one entry of a block as the entry of the
  argument array it is.
-/
import proofs.«179430_j47296179864030_2_alg».proof.Proof.Gen.KernelIdeal.Value
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The grid in closed form: the contraction stretch is the point's number modulo 8, the column block its quotient by
    8, and each window's block index follows one or both of them. -/
theorem grid_facts : ∀ t : Fin cfg0.N,
    (grid0.coords t 1).val = t.val % 8
    ∧ win0_0.index t (0 : Fin 2) = 0 ∧ win0_0.index t (1 : Fin 2) = 0
    ∧ win0_1.index t (0 : Fin 2) = t.val % 8 ∧ win0_1.index t (1 : Fin 2) = t.val / 8
    ∧ win0_2.index t (0 : Fin 2) = t.val % 8 ∧ win0_2.index t (1 : Fin 2) = t.val / 8
    ∧ win0_3.index t (0 : Fin 2) = t.val % 8 ∧ win0_3.index t (1 : Fin 2) = t.val / 8
    ∧ win0_4.index t (0 : Fin 2) = 0 ∧ win0_4.index t (1 : Fin 2) = t.val / 8
    ∧ win0_5.index t (0 : Fin 2) = 0 ∧ win0_5.index t (1 : Fin 2) = t.val / 8 :=
  (by decide +kernel : ∀ t : Fin grid0.N, _)

/-- Step `t`'s five input blocks, each at its literal shape. -/
def xBlock (c : Dev nD) (t : Fin cfg0.N) : Vec F S64x8192 .f32 := iblk m c 0 t
def wBlock (c : Dev nD) (t : Fin cfg0.N) : Vec F S1024x1024 .i32 := iblk m c 1 t
def scaleBlock (c : Dev nD) (t : Fin cfg0.N) : Vec F S32x1024 .f32 := iblk m c 2 t
def zeroBlock (c : Dev nD) (t : Fin cfg0.N) : Vec F S32x1024 .f32 := iblk m c 3 t
def biasBlock (c : Dev nD) (t : Fin cfg0.N) : Vec F S1x1024 .f32 := iblk m c 4 t

/-- Every step's block of `x` is all of `x`. -/
theorem xBlock_eq (c : Dev nD) (t : Fin cfg0.N) :
    xBlock m c t = m ((c : Thread nD τ).loc main_arg0) := by
  obtain ⟨-, h0, h1, -⟩ := grid_facts t
  funext j
  unfold xBlock iblk
  rw [View.read_apply]
  show V m c main_arg0 _ = m ((c : Thread nD τ).loc main_arg0) j
  rw [V_main_arg0]
  refine congrArg _ (funext fun a => Fin.ext ?_)
  match a with
  | ⟨0, _⟩ => show win0_0.index t (0 : Fin 2) * 64 + 1 * (j 0).val = (j 0).val; rw [h0]; omega
  | ⟨1, _⟩ => show win0_0.index t (1 : Fin 2) * 8192 + 1 * (j 1).val = (j 1).val; rw [h1]; omega

/-- The integer tile: entry `(j, q)` is the weight's `[(t % 8) · 1024 + j, (t / 8) · 1024 + q]`. -/
theorem wBlock_apply (c : Dev nD) (t : Fin cfg0.N) (j q : Fin 1024) (r cc : Fin 8192)
    (hr : r.val = t.val % 8 * 1024 + j.val) (hc : cc.val = t.val / 8 * 1024 + q.val) :
    wBlock m c t (ix2 j q) = m ((c : Thread nD τ).loc main_arg4) (ix2 r cc) := by
  obtain ⟨-, -, -, h0, h1, -⟩ := grid_facts t
  unfold wBlock iblk
  rw [View.read_apply]
  show V m c main_arg4 _ = m ((c : Thread nD τ).loc main_arg4) (ix2 r cc)
  rw [V_main_arg4]
  refine congrArg _ (funext fun a => Fin.ext ?_)
  match a with
  | ⟨0, _⟩ => show win0_1.index t (0 : Fin 2) * 1024 + 1 * j.val = r.val; rw [h0, hr]; omega
  | ⟨1, _⟩ => show win0_1.index t (1 : Fin 2) * 1024 + 1 * q.val = cc.val; rw [h1, hc]; omega

/-- The scale rows: entry `(b, q)` is the scales' `[(t % 8) · 32 + b, (t / 8) · 1024 + q]`. -/
theorem scaleBlock_apply (c : Dev nD) (t : Fin cfg0.N) (b : Fin 32) (q : Fin 1024) (g : Fin 256) (cc : Fin 8192)
    (hg : g.val = t.val % 8 * 32 + b.val) (hc : cc.val = t.val / 8 * 1024 + q.val) :
    scaleBlock m c t (ix2 b q) = m ((c : Thread nD τ).loc main_arg1) (ix2 g cc) := by
  obtain ⟨-, -, -, -, -, h0, h1, -⟩ := grid_facts t
  unfold scaleBlock iblk
  rw [View.read_apply]
  show V m c main_arg1 _ = m ((c : Thread nD τ).loc main_arg1) (ix2 g cc)
  rw [V_main_arg1]
  refine congrArg _ (funext fun a => Fin.ext ?_)
  match a with
  | ⟨0, _⟩ => show win0_2.index t (0 : Fin 2) * 32 + 1 * b.val = g.val; rw [h0, hg]; omega
  | ⟨1, _⟩ => show win0_2.index t (1 : Fin 2) * 1024 + 1 * q.val = cc.val; rw [h1, hc]; omega

/-- The zero-point rows, the same way. -/
theorem zeroBlock_apply (c : Dev nD) (t : Fin cfg0.N) (b : Fin 32) (q : Fin 1024) (g : Fin 256) (cc : Fin 8192)
    (hg : g.val = t.val % 8 * 32 + b.val) (hc : cc.val = t.val / 8 * 1024 + q.val) :
    zeroBlock m c t (ix2 b q) = m ((c : Thread nD τ).loc main_arg2) (ix2 g cc) := by
  obtain ⟨-, -, -, -, -, -, -, h0, h1, -⟩ := grid_facts t
  unfold zeroBlock iblk
  rw [View.read_apply]
  show V m c main_arg2 _ = m ((c : Thread nD τ).loc main_arg2) (ix2 g cc)
  rw [V_main_arg2]
  refine congrArg _ (funext fun a => Fin.ext ?_)
  match a with
  | ⟨0, _⟩ => show win0_3.index t (0 : Fin 2) * 32 + 1 * b.val = g.val; rw [h0, hg]; omega
  | ⟨1, _⟩ => show win0_3.index t (1 : Fin 2) * 1024 + 1 * q.val = cc.val; rw [h1, hc]; omega

/-- The bias as the kernel finds it: the one-row matrix the host reshapes the bias vector to. -/
theorem biasRow_eq (c : Dev nD) :
    (V m c main_v0 : S1x8192.Idx → Elt F .f32)
      = shapeCast S1x8192 (m ((c : Thread nD τ).loc main_arg3)) shapeCasts_S8192_S1x8192 := by
  dsimp only [Gen.V, Gen.hostOps0]
  after_results
  rfl

/-- The bias row's block: entry `(0, q)` is `bias[(t / 8) · 1024 + q]`. -/
theorem biasBlock_apply (c : Dev nD) (t : Fin cfg0.N) (q : Fin 1024) (cc : Fin 8192)
    (hc : cc.val = t.val / 8 * 1024 + q.val) :
    biasBlock m c t (ix2 (0 : Fin 1) q) = m ((c : Thread nD τ).loc main_arg3) (ix1 cc) := by
  obtain ⟨-, -, -, -, -, -, -, -, -, h0, h1, -⟩ := grid_facts t
  unfold biasBlock iblk
  rw [View.read_apply]
  show V m c main_v0 _ = m ((c : Thread nD τ).loc main_arg3) (ix1 cc)
  rw [biasRow_eq, ← shapeCast_a_1a_apply (m ((c : Thread nD τ).loc main_arg3)) shapeCasts_S8192_S1x8192 (0 : Fin 1) cc]
  refine congrArg _ (funext fun a => Fin.ext ?_)
  match a with
  | ⟨0, _⟩ => show win0_4.index t (0 : Fin 2) * 1 + 1 * 0 = 0; rw [h0]
  | ⟨1, _⟩ => show win0_4.index t (1 : Fin 2) * 1024 + 1 * q.val = cc.val; rw [h1, hc]; omega

end Cert.KernelIdeal.Blocks

end
-- ==== Proof.QuantLinear.lean ====
/-
  A linear layer over a weight stored as integers with one scale and one zero point per group of 32 consecutive rows.

  The weight's entry in row `r` and column `c` is `scale[r / 32, c] · (w[r, c] − zero[r / 32, c])`, the integer read as a
  real number, and the layer's result in row `p` and column `c` is `Σ_r x[p, r] · weight[r, c] + bias[c]`, all over the
  extended reals. This module states that result as one function of the five arrays, index by index, and proves the
  one law the comparison of two evaluation orders needs: a sum over `K · B` consecutive naturals is the sum of its `K`
  consecutive stretches of `B` terms — in any commutative monoid, so nothing has to be finite.
-/
import Idealize.ShloMosaic.PureOps.Ideal
import Idealize.ShloMosaic.Lib.ValueIdx

noncomputable section

open scoped BigOperators

namespace Cert.QuantLinear

open Idealize.ShloMosaic Idealize.ShloMosaic.ValueIdx

/-! ## Sums over consecutive stretches -/

/-- A sum over the first `K · B` naturals, stretch by stretch: stretch `s` holds the terms `s · B, …, s · B + B − 1`. -/
theorem sum_range_stretches {M : Type} [AddCommMonoid M] (f : ℕ → M) (B : ℕ) :
    ∀ K : ℕ, ∑ k ∈ Finset.range (K * B), f k = ∑ s ∈ Finset.range K, ∑ j ∈ Finset.range B, f (s * B + j)
  | 0 => by simp
  | K + 1 => by
    rw [Nat.succ_mul, Finset.sum_range_add, Finset.sum_range_succ, sum_range_stretches f B K]

/-- A sum over `Fin n` of a function given on the naturals below `n` is the sum over the range of its extension by zero. -/
theorem sum_fin_eq_range {M : Type} [AddCommMonoid M] (n : ℕ) (f : Fin n → M) :
    ∑ k : Fin n, f k = ∑ k ∈ Finset.range n, (if h : k < n then f ⟨k, h⟩ else 0) := by
  rw [Finset.sum_range]
  exact Finset.sum_congr rfl fun k _ => by rw [dif_pos k.isLt]

/-! ## The layer -/

/-- The group of 32 rows that weight row `r` belongs to. -/
def group (r : Fin 8192) : Fin 256 := ⟨r.val / 32, by have := r.isLt; omega⟩

/-- The weight's entry `(r, c)`: the stored integer, shifted by its group's zero point and scaled by its group's scale. -/
def weight (sc zr : (⟨2, ![256, 8192]⟩ : Shape).Idx → EReal) (wq : (⟨2, ![8192, 8192]⟩ : Shape).Idx → BitVec 32)
    (r c : Fin 8192) : EReal :=
  sc (ix2 (group r) c) * ((((wq (ix2 r c)).toInt : ℝ) : EReal) - zr (ix2 (group r) c))

/-- Term `k` of the product's entry in row `p` and column `c`, as a function on all naturals (zero from 8192 on). -/
def term (x : (⟨2, ![64, 8192]⟩ : Shape).Idx → EReal) (sc zr : (⟨2, ![256, 8192]⟩ : Shape).Idx → EReal)
    (wq : (⟨2, ![8192, 8192]⟩ : Shape).Idx → BitVec 32) (p : Fin 64) (c : Fin 8192) (k : ℕ) : EReal :=
  if h : k < 8192 then x (ix2 p ⟨k, h⟩) * weight sc zr wq ⟨k, h⟩ c else 0

/-- The layer's result: entry `(p, c)` is the whole row-times-column sum plus the column's bias. -/
def linear (x : (⟨2, ![64, 8192]⟩ : Shape).Idx → EReal) (sc zr : (⟨2, ![256, 8192]⟩ : Shape).Idx → EReal)
    (bias : (⟨1, ![8192]⟩ : Shape).Idx → EReal) (wq : (⟨2, ![8192, 8192]⟩ : Shape).Idx → BitVec 32) :
    (⟨2, ![64, 8192]⟩ : Shape).Idx → EReal :=
  fun i => (∑ k ∈ Finset.range 8192, term x sc zr wq (i 0) (i 1) k) + bias (ix1 (i 1))

/-- The row-times-column sum over `Fin 8192` is the sum of the terms over the range. -/
theorem sum_fin_terms (x : (⟨2, ![64, 8192]⟩ : Shape).Idx → EReal) (sc zr : (⟨2, ![256, 8192]⟩ : Shape).Idx → EReal)
    (wq : (⟨2, ![8192, 8192]⟩ : Shape).Idx → BitVec 32) (p : Fin 64) (c : Fin 8192) :
    ∑ k : Fin 8192, x (ix2 p k) * weight sc zr wq k c = ∑ k ∈ Finset.range 8192, term x sc zr wq p c k :=
  sum_fin_eq_range 8192 _

/-- The terms of stretch `s` of 1024: rows `s · 1024, …, s · 1024 + 1023` of the weight against the same columns of `x`. -/
theorem sum_fin_stretch (x : (⟨2, ![64, 8192]⟩ : Shape).Idx → EReal) (sc zr : (⟨2, ![256, 8192]⟩ : Shape).Idx → EReal)
    (wq : (⟨2, ![8192, 8192]⟩ : Shape).Idx → BitVec 32) (p : Fin 64) (c : Fin 8192) (s : ℕ) (hs : s < 8) :
    ∑ j : Fin 1024, x (ix2 p ⟨s * 1024 + j.val, by have := j.isLt; omega⟩)
        * weight sc zr wq ⟨s * 1024 + j.val, by have := j.isLt; omega⟩ c
      = ∑ j ∈ Finset.range 1024, term x sc zr wq p c (s * 1024 + j) := by
  rw [Finset.sum_range]
  refine Finset.sum_congr rfl fun j _ => ?_
  unfold term
  rw [dif_pos (by have := j.isLt; omega)]

end Cert.QuantLinear

end
-- ==== Proof.RunningSum.lean ====
/-
  The scratch block holds the running sum of the current column block.

  For entry `(p, q)` of column block `n`, write `c = n · 1024 + q` for its column in the result and
  `term k = x[p, k] · weight[k, c]`. Step `t = 8 n + s` adds `Σ_{j < 1024} term (s · 1024 + j)` to the scratch, which
  the first step of the column block (`s = 0`) has set to zero just before. So after step `t` the scratch holds
  `Σ_{k < (s + 1) · 1024} term k` — by induction on the step, joining a stretch to the stretches before it.
  Only associativity and commutativity of the extended reals' sum are used: no entry needs to be finite.
-/
import proofs.«179430_j47296179864030_2_alg».proof.Proof.KernelBlocks
import proofs.«179430_j47296179864030_2_alg».proof.Proof.TileValue
import proofs.«179430_j47296179864030_2_alg».proof.Proof.InputBlocks
import proofs.«179430_j47296179864030_2_alg».proof.Proof.QuantLinear

noncomputable section

open scoped BigOperators

open Idealize.ShloMosaic Idealize.ShloMosaic.TcCoe Idealize.SL.Sem

namespace Cert.KernelIdeal.Sum

open Cert.KernelIdeal Cert.KernelIdeal.Gen Cert.KernelIdeal.Steps Cert.KernelIdeal.Tile Cert.KernelIdeal.Blocks
open Cert.QuantLinear Idealize.ShloMosaic.ValueIdx

variable (m : (ℓ : Loc nD τ sig) → Buf (Elt Ideal) ℓ)

/-- The result column that entry `q` of step `n`'s column block is: `(n / 8) · 1024 + q`. -/
def col (n : ℕ) (q : Fin 1024) : Fin 8192 := ⟨n / 8 % 8 * 1024 + q.val, by have := q.isLt; omega⟩

/-- Term `k` of the result's entry in row `p` and column `cc`, over the kernel's argument arrays. -/
abbrev termAt (c : Dev nD) (p : Fin 64) (cc : Fin 8192) (k : ℕ) : EReal :=
  term (m ((c : Thread nD τ).loc main_arg0)) (m ((c : Thread nD τ).loc main_arg1)) (m ((c : Thread nD τ).loc main_arg2))
    (m ((c : Thread nD τ).loc main_arg4)) p cc k

/-- The tile of `x` a step loads, at entry `(p, j)`: `x[p, 1024 · s + j]` for the step's stretch `s`. -/
theorem xTile_apply {F : FTy → Type} [FloatOps F] (i : grid0.Coords) (x0 : Vec F S64x8192 .f32) (p : Fin 64) (j : Fin 1024)
    (k : Fin 8192) (hk : k.val = 1024 * (i 1).val + j.val) : xTile i x0 (ix2 p j) = x0 (ix2 p k) := by
  show x0 ((Rect.unit (s := S64x8192) (k0_off1 i) S64x1024.size (k0_off1_inb i)).idx (ix2 p j)) = x0 (ix2 p k)
  refine congrArg x0 (funext fun a => Fin.ext ?_)
  match a with
  | ⟨0, _⟩ =>
    show k0_off1 i 0 + 1 * p.val = p.val
    rw [k0_off1_eq]
    show 0 + 1 * p.val = p.val
    omega
  | ⟨1, _⟩ =>
    show k0_off1 i 1 + 1 * j.val = k.val
    rw [k0_off1_eq, hk]
    show 1024 * (i 1).val + 1 * j.val = 1024 * (i 1).val + j.val
    omega

/-- The 1024 products step `t` adds at entry `(p, q)` are the terms of its stretch. -/
theorem stepProducts (c : Dev nD) (t : Fin cfg0.N) (p : Fin 64) (q : Fin 1024) :
    ∑ j : Fin 1024, xTile (grid0.coords t) (xBlock m c t) (ix2 p j)
        * (scaleBlock m c t (ix2 (tileGroup j) q)
          * (((((wBlock m c t (ix2 j q)).toInt : ℝ) : EReal)) - zeroBlock m c t (ix2 (tileGroup j) q)))
      = ∑ j ∈ Finset.range 1024, termAt m c p (col t.val q) (t.val % 8 * 1024 + j) := by
  have hN : t.val < 64 := lt_of_lt_of_eq t.isLt N_0
  have hq := q.isLt
  obtain ⟨hs, -⟩ := grid_facts t
  rw [← sum_fin_stretch _ _ _ _ p (col t.val q) (t.val % 8) (by omega)]
  refine Finset.sum_congr rfl fun j _ => ?_
  have hj := j.isLt
  rw [xBlock_eq,
    xTile_apply (grid0.coords t) _ p j (⟨t.val % 8 * 1024 + j.val, by omega⟩ : Fin 8192) (by rw [hs]; show t.val % 8 * 1024 + j.val = 1024 * (t.val % 8) + j.val; omega),
    scaleBlock_apply m c t (tileGroup j) q (group ⟨t.val % 8 * 1024 + j.val, by omega⟩) (col t.val q)
      (by show (t.val % 8 * 1024 + j.val) / 32 = t.val % 8 * 32 + j.val / 32; omega)
      (by show t.val / 8 % 8 * 1024 + q.val = t.val / 8 * 1024 + q.val; omega),
    zeroBlock_apply m c t (tileGroup j) q (group ⟨t.val % 8 * 1024 + j.val, by omega⟩) (col t.val q)
      (by show (t.val % 8 * 1024 + j.val) / 32 = t.val % 8 * 32 + j.val / 32; omega)
      (by show t.val / 8 % 8 * 1024 + q.val = t.val / 8 * 1024 + q.val; omega),
    wBlock_apply m c t j q (⟨t.val % 8 * 1024 + j.val, by omega⟩ : Fin 8192) (col t.val q) rfl
      (by show t.val / 8 % 8 * 1024 + q.val = t.val / 8 * 1024 + q.val; omega)]
  rfl

/-- What the scratch holds after step `n`: at `(p, q)` the terms of the stretches the column block has done so far. -/
def partialSum (c : Dev nD) (n : ℕ) : Vec Ideal S64x1024 .f32 :=
  fun y => ∑ k ∈ Finset.range ((n % 8 + 1) * 1024), termAt m c (y 0) (col n (y 1)) k

theorem partialSum_apply (c : Dev nD) (n : ℕ) (p : Fin 64) (q : Fin 1024) :
    partialSum m c n (ix2 p q) = ∑ k ∈ Finset.range ((n % 8 + 1) * 1024), termAt m c p (col n q) k := rfl

/-- One step: if the scratch comes in holding the terms of the stretches before the step's, it leaves holding those of
    the stretches up to and including the step's. -/
theorem afterStep (c : Dev nD) (t : Fin cfg0.N) (acc : Vec Ideal S64x1024 .f32)
    (hacc : ∀ (p : Fin 64) (q : Fin 1024),
      acc (ix2 p q) = ∑ k ∈ Finset.range (t.val % 8 * 1024), termAt m c p (col t.val q) k) :
    k0_pay2 (xTile (grid0.coords t) (xBlock m c t)) (wBlock m c t) (scaleBlock m c t) (zeroBlock m c t) acc
      = partialSum m c t.val := by
  funext y
  obtain ⟨p, q, rfl⟩ : ∃ (p : Fin 64) (q : Fin 1024), y = ix2 p q := ⟨y 0, y 1, eq_ix2 y⟩
  refine (step_apply (xTile (grid0.coords t) (xBlock m c t)) (wBlock m c t) (scaleBlock m c t) (zeroBlock m c t) acc p q).trans ?_
  rw [hacc, stepProducts, partialSum_apply, show (t.val % 8 + 1) * 1024 = t.val % 8 * 1024 + 1024 by omega, Finset.sum_range_add]

/-- THE RUNNING SUM: after every step the scratch holds the partial sum of its column block. -/
theorem scratch_eq (c : Dev nD) : ∀ (n : ℕ) (h : n < cfg0.N), (outsAt0 m c n h).2 = partialSum m c n := by
  intro n
  induction n with
  | zero =>
    intro h
    rw [outsAt0_A m c ⟨0, h⟩ rfl (by show ¬0 % 8 = 7; decide)]
    dsimp only
    rw [scratch_first]
    exact afterStep m c ⟨0, h⟩ _ fun p q => by
      rw [Tile.zeroBlock_apply]
      show (0 : EReal) = ∑ k ∈ Finset.range (0 % 8 * 1024), _
      simp
  | succ n ih =>
    intro h
    have hN : n + 1 < 64 := lt_of_lt_of_eq h N_0
    by_cases h0 : (n + 1) % 8 = 0
    · have h1 : ¬(n + 1) % 8 = 7 := by omega
      rw [outsAt0_A m c ⟨n + 1, h⟩ h0 h1]
      dsimp only
      rw [scratch_first]
      exact afterStep m c ⟨n + 1, h⟩ _ fun p q => by
        rw [Tile.zeroBlock_apply]
        show (0 : EReal) = ∑ k ∈ Finset.range ((n + 1) % 8 * 1024), _
        rw [h0]
        simp
    · have hprev : ∀ (p : Fin 64) (q : Fin 1024), (outsAt0 m c n (Nat.lt_of_succ_lt h)).2 (ix2 p q)
          = ∑ k ∈ Finset.range ((n + 1) % 8 * 1024), termAt m c p (col (n + 1) q) k := fun p q => by
        rw [ih (Nat.lt_of_succ_lt h), partialSum_apply,
          show n % 8 + 1 = (n + 1) % 8 by omega,
          show col n q = col (n + 1) q from Fin.ext (by show n / 8 % 8 * 1024 + q.val = (n + 1) / 8 % 8 * 1024 + q.val; omega)]
      by_cases h1 : (n + 1) % 8 = 7
      · rw [outsAt0_C m c ⟨n + 1, h⟩ h0 h1]
        dsimp only
        rw [scratch_last]
        exact afterStep m c ⟨n + 1, h⟩ _ hprev
      · rw [outsAt0_B m c ⟨n + 1, h⟩ h0 h1]
        dsimp only
        rw [scratch_mid]
        exact afterStep m c ⟨n + 1, h⟩ _ hprev

end Cert.KernelIdeal.Sum

end
-- ==== Proof.ResultArray.lean ====
/-
  The kernel's result array is the linear layer's result.

  Only the last step of a column block writes its block back: rows 0 … 63, columns `n · 1024 …` of the result. What
  it writes at `(p, q)` is the scratch after that step — all 8 stretches, `Σ_{k < 8192} x[p, k] · weight[k, c]` with
  `c = n · 1024 + q` — plus `bias[c]`: the layer's entry `(p, c)`. The eight written blocks tile the array, so after
  the run the whole array holds the layer's result, and the argument arrays are as they were.
-/
import proofs.«179430_j47296179864030_2_alg».proof.Proof.RunningSum

noncomputable section

open scoped BigOperators

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Steps Cert.KernelIdeal.Tile Cert.KernelIdeal.Blocks
open Cert.KernelIdeal.Sum Cert.QuantLinear Idealize.ShloMosaic.ValueIdx

variable (m : (ℓ : Loc nD τ sig) → Buf (Elt Ideal) ℓ) (ρ : Dev nD → PrngReg)

/-- The layer's result over the kernel's argument arrays, as contents of the result array. -/
def result (c : Dev nD) : Buf (Elt Ideal) ((c : Thread nD τ).loc main_v1) :=
  linear (m ((c : Thread nD τ).loc main_arg0)) (m ((c : Thread nD τ).loc main_arg1)) (m ((c : Thread nD τ).loc main_arg2))
    (m ((c : Thread nD τ).loc main_arg3)) (m ((c : Thread nD τ).loc main_arg4))

theorem result_apply (c : Dev nD) (p : Fin 64) (cc : Fin 8192) :
    result m c (ix2 p cc) = (∑ k ∈ Finset.range 8192, termAt m c p cc k) + m ((c : Thread nD τ).loc main_arg3) (ix1 cc) := rfl

/-- The block the last step of a column block stores, at entry `(p, q)`: the layer's entry in row `p` and the column
    block's column `q`. -/
theorem lastBlock_apply (c : Dev nD) (t : Fin cfg0.N) (h0 : ¬t.val % 8 = 0) (h7 : t.val % 8 = 7) (p : Fin 64) (q : Fin 1024) :
    (outsAt0 m c t.val t.isLt).1 (ix2 p q) = result m c (ix2 p (col t.val q)) := by
  have hN : t.val < 64 := lt_of_lt_of_eq t.isLt N_0
  have hprev : ∀ (p : Fin 64) (q : Fin 1024),
      (outsAt0 m c (t.val - 1) (Nat.lt_of_le_of_lt (Nat.sub_le _ _) t.isLt)).2 (ix2 p q)
        = ∑ k ∈ Finset.range (t.val % 8 * 1024), termAt m c p (col t.val q) k := fun p q => by
    rw [scratch_eq, partialSum_apply,
      show (t.val - 1) % 8 + 1 = t.val % 8 by omega,
      show col (t.val - 1) q = col t.val q from Fin.ext (by show (t.val - 1) / 8 % 8 * 1024 + q.val = t.val / 8 % 8 * 1024 + q.val; omega)]
  rw [outsAt0_C m c t h0 h7]
  dsimp only
  rw [result_last]
  refine (congrArg (fun s => k0_pay3 s (biasBlock m c t) (ix2 p q)) (afterStep m c t _ hprev)).trans ?_
  refine (resultBlock_apply (partialSum m c t.val) (biasBlock m c t) p q).trans ?_
  rw [partialSum_apply, result_apply, h7, show (7 + 1) * 1024 = 8192 from rfl,
    biasBlock_apply m c t q (col t.val q) (by show t.val / 8 % 8 * 1024 + q.val = t.val / 8 * 1024 + q.val; omega)]

/-- An index of the result array is in step `t`'s block iff each coordinate is in the block's range on its axis. -/
theorem mem_block (t : Fin cfg0.N) (i : S64x8192.Idx) :
    i ∈ ((cfg0.win 5).blk t).view.set ↔ ∀ a : Fin 2, win0_5.index t a * S64x1024.size a ≤ (i a).val
      ∧ (i a).val < win0_5.index t a * S64x1024.size a + S64x1024.size a := by
  show i ∈ ((View.whole main_v1).slice (win0_5.rect t)).set ↔ _
  rw [View.set_slice_whole, Rect.mem_set_unit]
  exact Iff.rfl

/-- What a writing step writes back is its block of the layer's result. -/
theorem flushed_eq (c : Dev nD) (t : Fin cfg0.N) (hf : (cfg0.win 5).flush t = true) :
    (dats m 0 c).flushed 5 t = ((cfg0.win 5).blk t).view.read (Elt Ideal) (result m c) := by
  have hN : t.val < 64 := lt_of_lt_of_eq t.isLt N_0
  have h7 : t.val % 8 = 7 := (flush0_5 t).mp hf
  have h0 : ¬t.val % 8 = 0 := by omega
  obtain ⟨-, -, -, -, -, -, -, -, -, -, -, i0, i1⟩ := grid_facts t
  rw [Value.flushed5]
  funext y
  have hp : (y 0).val < 64 := (y 0).isLt
  have hq : (y 1).val < 1024 := (y 1).isLt
  have e1 : (cfg0.win 5).xinj (grid0.coords t) y = ix2 (⟨(y 0).val, hp⟩ : Fin 64) (⟨(y 1).val, hq⟩ : Fin 1024) :=
    funext fun a => Fin.ext (by match a with | ⟨0, _⟩ => rfl | ⟨1, _⟩ => rfl)
  have e2 : ((cfg0.win 5).blk t).view.emb y = ix2 (⟨(y 0).val, hp⟩ : Fin 64) (col t.val ⟨(y 1).val, hq⟩) :=
    funext fun a => Fin.ext (by
      match a with
      | ⟨0, _⟩ => show win0_5.index t (0 : Fin 2) * 64 + 1 * (y 0).val = (y 0).val; rw [i0]; omega
      | ⟨1, _⟩ => show win0_5.index t (1 : Fin 2) * 1024 + 1 * (y 1).val = t.val / 8 % 8 * 1024 + (y 1).val; rw [i1]; omega)
  show (outsAt0 m c t.val t.isLt).1 ((cfg0.win 5).xinj (grid0.coords t) y) = result m c (((cfg0.win 5).blk t).view.emb y)
  rw [e1, e2]
  exact lastBlock_apply m c t h0 h7 _ _

/-- The written blocks tile the result array: column `cc` is in the block the last step of column block `cc / 1024`
    writes. So the array ends holding the layer's result. -/
theorem final (c : Dev nD) : (dats m 0 c).arrAt 5 cfg0.N = result m c :=
  (dats m 0 c).arrAt_eq_of_cover 5 (result m c) (flushed_eq m c) fun i => by
    have hi0 : (i 0).val < 64 := (i 0).isLt
    have hi1 : (i 1).val < 8192 := (i 1).isLt
    let t : Fin cfg0.N := ⟨(i 1).val / 1024 * 8 + 7, by show _ < grid0.N; rw [N_0]; omega⟩
    have ht : t.val = (i 1).val / 1024 * 8 + 7 := rfl
    obtain ⟨-, -, -, -, -, -, -, -, -, -, -, i0, i1⟩ := grid_facts t
    refine ⟨t, (flush0_5 t).mpr (by rw [ht]; omega), ?_⟩
    rw [mem_block]
    intro a
    match a with
    | ⟨0, _⟩ =>
      show win0_5.index t (0 : Fin 2) * 64 ≤ (i 0).val ∧ (i 0).val < win0_5.index t (0 : Fin 2) * 64 + 64
      rw [i0]; omega
    | ⟨1, _⟩ =>
      show win0_5.index t (1 : Fin 2) * 1024 ≤ (i 1).val ∧ (i 1).val < win0_5.index t (1 : Fin 2) * 1024 + 1024
      rw [i1, ht]; omega

/-- The run, read: the result array at the layer's result of the argument arrays, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.RefRead.lean ====
/-
  The reference computes the linear layer over the group-quantized weight.

  It repeats each group's scale and zero point over the group's 32 rows (a broadcast along a new middle axis, then a
  reshape that merges it into the row axis: row `r` reads group `r / 32`), dequantizes the whole weight, multiplies
  `x` by it in one matrix product and adds the bias along the rows. Read at one entry `(p, c)` that is
  `Σ_r x[p, r] · scale[r / 32, c] · (w[r, c] − zero[r / 32, c]) + bias[c]`: the layer's result.
-/
import proofs.«179430_j47296179864030_2_alg».proof.Proof.Gen.ReferenceIdeal.Run
import proofs.«179430_j47296179864030_2_alg».proof.Proof.Gen.ReferenceIdeal.Read
import proofs.«179430_j47296179864030_2_alg».proof.Proof.QuantLinear

noncomputable section

open scoped BigOperators

namespace Cert.ReferenceIdeal.RefValue

open Cert.ReferenceIdeal Cert.ReferenceIdeal.Gen Cert.ReferenceIdeal.Read
open Idealize.ShloMosaic Idealize.ShloMosaic.ValueIdx Cert.QuantLinear

/-- The left operand of the product at entry `(p, c)`, term `k`: `x[p, k]`. -/
theorem lidx_eq (p : Fin 64) (q k : Fin 8192) : lidx_main_v7 (ix2 p q) k = ix2 p k :=
  funext fun a => Fin.ext (by match a with | ⟨0, _⟩ => rfl | ⟨1, _⟩ => rfl)

/-- The right operand of the product at entry `(p, c)`, term `k`: the weight's `[k, c]`. -/
theorem ridx_eq (p : Fin 64) (q k : Fin 8192) : ridx_main_v7 (ix2 p q) k = ix2 k q :=
  funext fun a => Fin.ext (by match a with | ⟨0, _⟩ => rfl | ⟨1, _⟩ => rfl)

/-- The repeated scale at weight row `k`, column `q` is the scale of group `k / 32` at column `q`. -/
theorem scale_idx_eq (k q : Fin 8192) : idx_main_v0 (idx_main_v1 (ix2 k q)) = ix2 (group k) q :=
  funext fun a => Fin.ext (by
    have hk := k.isLt
    have hq := q.isLt
    match a with
    | ⟨0, _⟩ => show (k.val * 8192 + q.val) / 262144 = k.val / 32; omega
    | ⟨1, _⟩ => show (k.val * 8192 + q.val) % 8192 = q.val; omega)

/-- The same for the repeated zero point. -/
theorem zero_idx_eq (k q : Fin 8192) : idx_main_v2 (idx_main_v3 (ix2 k q)) = ix2 (group k) q :=
  funext fun a => Fin.ext (by
    have hk := k.isLt
    have hq := q.isLt
    match a with
    | ⟨0, _⟩ => show (k.val * 8192 + q.val) / 262144 = k.val / 32; omega
    | ⟨1, _⟩ => show (k.val * 8192 + q.val) % 8192 = q.val; omega)

/-- The bias broadcast along the rows, at entry `(p, q)`: `bias[q]`. -/
theorem bias_idx_eq (p : Fin 64) (q : Fin 8192) : idx_main_v8 (idx_main_v9 (ix2 p q)) = ix1 q :=
  funext fun a => Fin.ext (by match a with | ⟨0, _⟩ => rfl)

/-- The reference's result, as the operations compose it, is the layer's result of the same five arrays. -/
theorem result_eq (x0 : (⟨S64x8192, .f32⟩ : BufTy).Contents (Elt Ideal)) (x1 x2 : (⟨S256x8192, .f32⟩ : BufTy).Contents (Elt Ideal))
    (x3 : (⟨S8192, .f32⟩ : BufTy).Contents (Elt Ideal)) (x4 : (⟨S8192x8192, .i32⟩ : BufTy).Contents (Elt Ideal)) :
    val_main_v10 (F := Ideal) x0 x1 x2 x3 x4 = linear x0 x1 x2 x3 x4 := by
  funext i
  obtain ⟨p, q, rfl⟩ : ∃ (p : Fin 64) (q : Fin 8192), i = ix2 p q := ⟨i 0, i 1, eq_ix2 i⟩
  rw [val_main_v10_apply, val_main_v7_apply, val_main_v9_apply, val_main_v8_apply, bias_idx_eq]
  unfold linear
  rw [← sum_fin_terms]
  show (∑ k : Fin 8192, _) + _ = _
  congr 1
  refine Finset.sum_congr rfl fun k _ => ?_
  rw [lidx_eq, ridx_eq, val_main_v6_apply, val_main_v5_apply, val_main_v4_apply, val_main_v1_apply, val_main_v0_apply,
    val_main_v3_apply, val_main_v2_apply, scale_idx_eq, zero_idx_eq]
  rfl

end Cert.ReferenceIdeal.RefValue

end
-- ==== Proof.lean ====
/-
  A linear layer over a group-quantized weight: a tiled kernel against one matrix product.

  Both programs compute, for `x` of 64 rows and a weight of 8192 × 8192 stored as integers with a scale and a zero
  point per group of 32 consecutive rows, the entry `Σ_k x[p, k] · scale[k / 32, c] · (w[k, c] − zero[k / 32, c]) + bias[c]`.
  The reference repeats the scales and zero points over their groups, dequantizes the whole weight and takes one matrix
  product. The kernel walks 8 column blocks of the result and, within each, 8 stretches of 1024 terms of the sum:
  each step dequantizes one 1024 × 1024 tile, multiplies the matching columns of `x` by it and adds the product to a
  running sum that starts at zero, and the column block's last step adds the bias and writes the block.

  Over the extended reals the two are the same function of the five arrays: the changes of float format on the way into
  the kernel's products are the identity, and the sum of 8192 terms is the sum of its 8 stretches of 1024 added one after
  another from zero — associativity and commutativity of addition, which hold at the infinities too, so the proof never
  opens the precondition. The idealization rewrote nothing, and the three programs run as their generated frames and the
  reference's generated run say.
-/
import proofs.«179430_j47296179864030_2_alg».proof.Defs
import proofs.«179430_j47296179864030_2_alg».proof.Proof.Gen.Kernel
import proofs.«179430_j47296179864030_2_alg».proof.Proof.Gen.Kernel.Skeleton
import proofs.«179430_j47296179864030_2_alg».proof.Proof.Gen.Kernel.Launch
import proofs.«179430_j47296179864030_2_alg».proof.Proof.Gen.Kernel.Points
import proofs.«179430_j47296179864030_2_alg».proof.Proof.Gen.Kernel.Frame
import proofs.«179430_j47296179864030_2_alg».proof.Proof.Gen.KernelIdeal
import proofs.«179430_j47296179864030_2_alg».proof.Proof.Gen.KernelIdeal.Skeleton
import proofs.«179430_j47296179864030_2_alg».proof.Proof.Gen.KernelIdeal.Launch
import proofs.«179430_j47296179864030_2_alg».proof.Proof.Gen.KernelIdeal.Points
import proofs.«179430_j47296179864030_2_alg».proof.Proof.Gen.KernelIdeal.Frame
import proofs.«179430_j47296179864030_2_alg».proof.Proof.Gen.ReferenceIdeal
import proofs.«179430_j47296179864030_2_alg».proof.Proof.Gen.Pre_finite_inputs
import proofs.«179430_j47296179864030_2_alg».proof.Proof.ResultArray
import proofs.«179430_j47296179864030_2_alg».proof.Proof.RefRead
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From memories that agree on the five arguments, the kernel's result array and the reference's both end at the
    layer's result of those arguments: the same extended reals, entry by entry. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2.1,
    (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
